-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x1 : Shape := ⟨2, ![100000, 1]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S100000x1 .f32) (main_arg2 : FVec F S128x128 .f32) (main_arg3 : FVec F S128 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S100000x1 : Shape := ⟨2, ![100000, 1]⟩
abbrev S128x128 : Shape := ⟨2, ![128, 128]⟩
abbrev S128 : Shape := ⟨1, ![128]⟩
abbrev S1600000 : Shape := ⟨1, ![1600000]⟩
abbrev S5000x128 : Shape := ⟨2, ![5000, 128]⟩
abbrev S5000x1 : Shape := ⟨2, ![5000, 1]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 22
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S100000x1, .f32⟩
  | .hbm, ⟨2, _⟩ => ⟨S128x128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S100000x128, .bf16⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .bf16⟩
  | .hbm, ⟨16, _⟩ => ⟨S1600000x128, .f32⟩
  | .hbm, ⟨17, _⟩ => ⟨S_, .f32⟩
  | .hbm, ⟨18, _⟩ => ⟨S100000x128, .f32⟩
  | .hbm, ⟨19, _⟩ => ⟨S1600000x1, .i32⟩
  | .hbm, ⟨20, _⟩ => ⟨S100000x128, .f32⟩
  | .hbm, ⟨21, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000x1 : Shape := ⟨2, ![100000, 1]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 35
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x1, .f32⟩
  | .hbm, ⟨2, _⟩ => ⟨S128x128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S100000x128, .f32⟩
  | .hbm, ⟨7, _⟩ => ⟨S100000x128, .f32⟩
  | .hbm, ⟨8, _⟩ => ⟨S100000x128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S100000x128, .f32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S100000x128, .f32⟩
  | .hbm, ⟨27, _⟩ => ⟨S_, .f32⟩
  | .hbm, ⟨28, _⟩ => ⟨S_, .f32⟩
  | .hbm, ⟨29, _⟩ => ⟨S100000x128, .f32⟩
  | .hbm, ⟨30, _⟩ => ⟨S100000x128, .i1⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v18 : Ref sig .tc := ⟨.hbm, 34, rfl⟩

abbrev nD : Nat := 1
abbrev τ : Topo := Topo.v7x

variable {F : FTy → Type} [FloatOps F]

class Facts₀ : Prop where
  bcast_S100000x1_S100000x128_0_1 : S100000x1.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KRun.lean ====
/-
  The idealized kernel program's run with its RESULT array named.

  The program is two grid regions with a stretch of host operations between them.  Its buffers' contents at the
  segment boundaries are a fold from the launch memory: the launch contents, then region 0's arrays at what its
  write-backs leave, then the host stretch applied, then region 1's arrays at what its write-backs leave.  The run
  below is the launch theorem for a program of several regions over those segments, read at the end both at the six
  argument arrays (unchanged) and at the result array, which holds the last boundary's contents there.
-/
import proofs.«134280_j30966714204803_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting; the result array ends at the last
    boundary's contents and the six argument arrays as launched. -/
theorem run_named : θ_run defs (onTc (τ := τ) (main (F := F))) ⟨m, fun _ => 0, ρ⟩ (fun r => ∀ c : Dev nD,
      r.2.mem ((c.tc : Thread nD τ).loc main_v12) = W3 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v12 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.KRun

end
-- ==== Proof.Spec.lean ====
/-
  The two whole-array functions both programs compute, index by index on the extended reals, and the one pointwise
  law that joins the two spellings of the activation.

  * The MESSAGE array: entry (r, c) is the r-th row of the features times the c-th column of the weights — a sum of
    128 products — scaled by the r-th node's normalisation.
  * The OUTPUT array, from an aggregated array n: entry (r, c) is the activation of n(r, c) · norm(r) + bias(c).
  * The activation is the leaky rectifier with slope s (s the value of the literal both programs use): v where v is
    positive, s · v elsewhere.  One program tests v > 0, the other v ≥ 0; the two differ only at v = 0, where
    s · 0 = 0 = v, so they are one function on every extended real, the infinities included.
-/
import Idealize.ShloMosaic.PureOps.Ideal
import Idealize.ShloMosaic.PureOps.Ideal.Laws
import Idealize.ShloMosaic.Lib.ValueIdx

noncomputable section

open scoped BigOperators

namespace Cert.GraphSpec

open Idealize.ShloMosaic Idealize.ShloMosaic.ValueIdx

/-- Entry (r, c) of the message array: (Σₖ h(r, k) · w(k, c)) · norm(r). -/
def msgAt (h : (⟨2, ![100000, 128]⟩ : Shape).Idx → EReal) (w : (⟨2, ![128, 128]⟩ : Shape).Idx → EReal)
    (nrm : (⟨2, ![100000, 1]⟩ : Shape).Idx → EReal) (r : Fin 100000) (c : Fin 128) : EReal :=
  (∑ k : Fin 128, h (ix2 r k) * w (ix2 k c)) * nrm (ix2 r (0 : Fin 1))

/-- The message array as one function of the feature, weight and normalisation arrays. -/
def msg (h : (⟨2, ![100000, 128]⟩ : Shape).Idx → EReal) (w : (⟨2, ![128, 128]⟩ : Shape).Idx → EReal)
    (nrm : (⟨2, ![100000, 1]⟩ : Shape).Idx → EReal) : (⟨2, ![100000, 128]⟩ : Shape).Idx → EReal :=
  fun i => msgAt h w nrm (i 0) (i 1)

theorem msg_ix2 (h : (⟨2, ![100000, 128]⟩ : Shape).Idx → EReal) (w : (⟨2, ![128, 128]⟩ : Shape).Idx → EReal)
    (nrm : (⟨2, ![100000, 1]⟩ : Shape).Idx → EReal) (r : Fin 100000) (c : Fin 128) :
    msg h w nrm (ix2 r c) = msgAt h w nrm r c := rfl

/-- The leaky rectifier as the kernel spells it: v where v > 0, slope · v elsewhere. -/
def act (v : EReal) : EReal :=
  Scalar.select (Ideal.cmp .ogt v (Ideal.ofBits .f32 0x00000000#32)) v (Ideal.ofBits .f32 0x3E4CCCCD#32 * v)

/-- The reference's spelling tests v ≥ 0 instead: the same function, since at v = 0 both branches are 0. -/
theorem act_eq_ge (v : EReal) :
    act v = Scalar.select (Ideal.cmp .oge v (Ideal.ofBits .f32 0x00000000#32)) v (Ideal.ofBits .f32 0x3E4CCCCD#32 * v) := by
  unfold act
  rw [Ideal.ofBits_zero_f32]
  rcases lt_trichotomy v 0 with h | h | h
  · have h1 : ¬ (0 < v) := not_lt.mpr h.le
    have h2 : ¬ (0 ≤ v) := not_le.mpr h
    simp [Ideal.cmp, Scalar.select, h1, h2]
  · subst h
    simp [Ideal.cmp, Scalar.select]
  · simp [Ideal.cmp, Scalar.select, h, h.le]

/-- Entry (r, c) of the output array: the activation of n(r, c) · norm(r) + bias(c). -/
def outAt (n : (⟨2, ![100000, 128]⟩ : Shape).Idx → EReal) (nrm : (⟨2, ![100000, 1]⟩ : Shape).Idx → EReal)
    (b : (⟨1, ![128]⟩ : Shape).Idx → EReal) (r : Fin 100000) (c : Fin 128) : EReal :=
  act (n (ix2 r c) * nrm (ix2 r (0 : Fin 1)) + b (ix1 c))

/-- The output array as one function of the aggregated, normalisation and bias arrays. -/
def out (n : (⟨2, ![100000, 128]⟩ : Shape).Idx → EReal) (nrm : (⟨2, ![100000, 1]⟩ : Shape).Idx → EReal)
    (b : (⟨1, ![128]⟩ : Shape).Idx → EReal) : (⟨2, ![100000, 128]⟩ : Shape).Idx → EReal :=
  fun i => outAt n nrm b (i 0) (i 1)

theorem out_ix2 (n : (⟨2, ![100000, 128]⟩ : Shape).Idx → EReal) (nrm : (⟨2, ![100000, 1]⟩ : Shape).Idx → EReal)
    (b : (⟨1, ![128]⟩ : Shape).Idx → EReal) (r : Fin 100000) (c : Fin 128) :
    out n nrm b (ix2 r c) = outAt n nrm b r c := rfl

end Cert.GraphSpec

end
-- ==== Proof.Pay.lean ====
/-
  The two kernel bodies' stored values read at one index, on the extended reals.

  Region 0 stores, at (p, q) of a 5000 × 128 block, the row p of the feature block times the column q of the weight
  matrix — the matrix unit's product into a zero accumulator, a sum over the 128 contracted coordinates; the two
  roundings to the narrow float format on the way in and the one on the way out are the identity on extended reals —
  scaled by the normalisation column at row p (a [5000, 1] column broadcast along the lanes).
  Region 1 stores, at (p, q), the activation of  n(p, q) · norm(p) + bias(q):  the bias is a [128] vector recast to one
  row and broadcast down the 5000 rows.
-/
import proofs.«134280_j30966714204803_2_alg».proof.Proof.Gen.KernelIdeal.Skeleton
import proofs.«134280_j30966714204803_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx

abbrev mm : DotDims S5000x128 S128x128 S5000x128 := dot_S5000x128_S128x128_S5000x128_1_0_0_1_n_n

/-- The left operand's index at output (p, q) and contraction position κ: row p … -/
theorem lhs_row (i : S5000x128.Idx) (κ : mm.contr.Idx) : (mm.lhsIdx i κ 0).val = (i 0).val := by
  unfold DotDims.lhsIdx
  rw [dif_neg (show ¬(0 : Fin S5000x128.rank) ∈ mm.lhsBatch by decide), dif_pos (show (0 : Fin S5000x128.rank) ∈ mm.lhsNonContracting by decide)]
  rfl
/-- … and the contracted coordinate. -/
theorem lhs_col (i : S5000x128.Idx) (κ : mm.contr.Idx) : (mm.lhsIdx i κ 1).val = (κ ⟨0, by decide⟩).val :=
  mm.lhsIdx_val_of_single rfl i κ
/-- The right operand's: the contracted coordinate … -/
theorem rhs_row (i : S5000x128.Idx) (κ : mm.contr.Idx) : (mm.rhsIdx i κ 0).val = (κ ⟨0, by decide⟩).val :=
  mm.rhsIdx_val_of_single rfl i κ
/-- … and column q. -/
theorem rhs_col (i : S5000x128.Idx) (κ : mm.contr.Idx) : (mm.rhsIdx i κ 1).val = (i 1).val := by
  unfold DotDims.rhsIdx
  rw [dif_neg (show ¬(1 : Fin S128x128.rank) ∈ mm.rhsBatch by decide), dif_pos (show (1 : Fin S128x128.rank) ∈ mm.rhsNonContracting by decide)]
  rfl

/-- The matrix unit's product into the zero accumulator, at (p, q): Σₖ a(p, k) · b(k, q). -/
theorem matmul_at (a : FVec Ideal S5000x128 .bf16) (b : FVec Ideal S128x128 .bf16) (p : Fin 5000) (q : Fin 128) :
    matmul (F := Ideal) mm none a b (constant S5000x128 .f32 0x00000000#32) (ix2 p q) = ∑ k : Fin 128, a (ix2 p k) * b (ix2 k q) := by
  refine (Ideal.matmul_constant_zero_apply mm none a b (ix2 p q)).trans ?_
  rw [← Equiv.sum_comp (contrEquiv1 mm 128 rfl rfl).symm]
  refine Finset.sum_congr rfl fun k _ => ?_
  have hk := contrEquiv1_symm_val mm 128 rfl rfl k
  have el : mm.lhsIdx (ix2 p q) ((contrEquiv1 mm 128 rfl rfl).symm k) = ix2 p k := funext fun ax => Fin.ext (by
    match ax with
    | ⟨0, _⟩ => exact lhs_row _ _
    | ⟨1, _⟩ => exact (lhs_col _ _).trans hk)
  have er : mm.rhsIdx (ix2 p q) ((contrEquiv1 mm 128 rfl rfl).symm k) = ix2 k q := funext fun ax => Fin.ext (by
    match ax with
    | ⟨0, _⟩ => exact (rhs_row _ _).trans hk
    | ⟨1, _⟩ => exact rhs_col _ _)
  rw [el, er]

/-- A [5000, 1] column broadcast along the 128 lanes reads, at (p, q), the column at row p. -/
theorem bcast_col (x : (⟨2, ![5000, 1]⟩ : Shape).Idx → EReal) (h : S5000x1.Broadcasts S5000x128) (p : Fin 5000) (q : Fin 128) :
    broadcastTo S5000x128 x h (ix2 p q) = x (ix2 p (0 : Fin 1)) := by
  refine broadcastTo_apply x h (ix2 p q) (ix2 p (0 : Fin 1)) fun ax => ?_
  match ax with
  | ⟨0, _⟩ => rfl
  | ⟨1, _⟩ => rfl

/-- REGION 0's stored value at (p, q). -/
theorem pay0_at (x0 : Vec Ideal S5000x128 .f32) (x1 : Vec Ideal S128x128 .f32) (x2 : Vec Ideal S5000x1 .f32) (p : Fin 5000) (q : Fin 128) :
    k0_pay1 (F := Ideal) x0 x1 x2 (ix2 p q) = (∑ k : Fin 128, x0 (ix2 p k) * x1 (ix2 k q)) * x2 (ix2 p (0 : Fin 1)) := by
  unfold k0_pay1
  show (matmul (F := Ideal) mm none (truncf (F := Ideal) .bf16 x0 bitsLt_bf16_f32) (truncf (F := Ideal) .bf16 x1 bitsLt_bf16_f32) (constant S5000x128 .f32 0x00000000#32) (ix2 p q) : EReal)
      * broadcastTo S5000x128 x2 broadcasts_S5000x1_S5000x128 (ix2 p q) = _
  rw [matmul_at, bcast_col]
  rfl

/-- A [128] vector recast to one row and broadcast down the rows reads, at (p, q), the vector at q. -/
theorem bcast_row (x : (⟨1, ![128]⟩ : Shape).Idx → EReal) (h : S128.ShapeCasts S1x128) (h' : S1x128.Broadcasts S5000x128) (p : Fin 5000) (q : Fin 128) :
    broadcastTo S5000x128 (shapeCast S1x128 x h) h' (ix2 p q) = x (ix1 q) := by
  rw [broadcastTo_1b_ab_apply, shapeCast_a_1a_apply]

/-- REGION 1's stored value at (p, q). -/
theorem pay1_at (x0 : Vec Ideal S5000x128 .f32) (x1 : Vec Ideal S5000x1 .f32) (x2 : Vec Ideal S128 .f32) (p : Fin 5000) (q : Fin 128) :
    k1_pay1 (F := Ideal) x0 x1 x2 (ix2 p q) = Cert.GraphSpec.act (x0 (ix2 p q) * x1 (ix2 p (0 : Fin 1)) + x2 (ix1 q)) := by
  unfold k1_pay1
  rw [shapeCast_self]
  show Scalar.select (Ideal.cmp .ogt (x0 (ix2 p q) * broadcastTo S5000x128 x1 broadcasts_S5000x1_S5000x128 (ix2 p q)
        + broadcastTo S5000x128 (shapeCast S1x128 x2 shapeCasts_S128_S1x128) broadcasts_S1x128_S5000x128 (ix2 p q)) (Ideal.ofBits .f32 0x00000000#32))
      (x0 (ix2 p q) * broadcastTo S5000x128 x1 broadcasts_S5000x1_S5000x128 (ix2 p q)
        + broadcastTo S5000x128 (shapeCast S1x128 x2 shapeCasts_S128_S1x128) broadcasts_S1x128_S5000x128 (ix2 p q))
      (Ideal.ofBits .f32 0x3E4CCCCD#32 * (x0 (ix2 p q) * broadcastTo S5000x128 x1 broadcasts_S5000x1_S5000x128 (ix2 p q)
        + broadcastTo S5000x128 (shapeCast S1x128 x2 shapeCasts_S128_S1x128) broadcasts_S1x128_S5000x128 (ix2 p q))) = _
  rw [bcast_col, bcast_row]
  rfl

end Cert.KernelIdeal.Pay

end
-- ==== Proof.Blocks0.lean ====
/-
  Region 0's output array after the region, as ONE function of the arrays the region finds.

  The grid has 20 points; point t works on rows 5000·t … 5000·t + 4999: it stages that row block of the features, the
  whole weight matrix, that row block of the normalisation column, and writes back that row block of the messages.
  What it writes at (p, q) of the block is the message entry (5000·t + p, q); the 20 row blocks tile the array, so the
  array ends as the message array everywhere.
-/
import proofs.«134280_j30966714204803_2_alg».proof.Proof.Gen.KernelIdeal.Frame
import proofs.«134280_j30966714204803_2_alg».proof.Proof.Pay
import Idealize.ShloMosaic.Lib.Pipeline.Value

set_option maxRecDepth 16384

noncomputable section

open scoped BigOperators

namespace Cert.KernelIdeal.Blocks0

open Cert.KernelIdeal Cert.KernelIdeal.Gen Idealize.ShloMosaic Idealize.ShloMosaic.TcCoe Idealize.SL.Sem Idealize.ShloMosaic.ValueIdx
open Idealize.ShloMosaic.Pipeline (Dat)
open Cert.GraphSpec

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the grid: the three row-blocked windows are at row block t, column block 0; the
    weight window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- One block entry is one message entry, given where the three staged blocks sit in their arrays. -/
theorem entry_eq (A0 : (⟨2, ![100000, 128]⟩ : Shape).Idx → EReal) (A2 : (⟨2, ![128, 128]⟩ : Shape).Idx → EReal)
    (A1 : (⟨2, ![100000, 1]⟩ : Shape).Idx → EReal)
    (x0 : Vec Ideal S5000x128 .f32) (x1 : Vec Ideal S128x128 .f32) (x2 : Vec Ideal S5000x1 .f32) (n : Nat)
    (h0 : ∀ (p : Fin 5000) (k : Fin 128) (r : Fin 100000), r.val = n * 5000 + p.val → x0 (ix2 p k) = A0 (ix2 r k))
    (h1 : ∀ (k q : Fin 128), x1 (ix2 k q) = A2 (ix2 k q))
    (h2 : ∀ (p : Fin 5000) (r : Fin 100000), r.val = n * 5000 + p.val → x2 (ix2 p (0 : Fin 1)) = A1 (ix2 r (0 : Fin 1)))
    (j : S5000x128.Idx) (i : S100000x128.Idx) (hi0 : (i 0).val = n * 5000 + (j 0).val) (hi1 : (i 1).val = (j 1).val) :
    k0_pay1 (F := Ideal) x0 x1 x2 j = msg A0 A2 A1 i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  obtain rfl : s = q := Fin.ext hi1
  rw [Cert.KernelIdeal.Pay.pay0_at, msg_ix2]
  unfold msgAt
  rw [h2 p r hi0]
  refine congrArg (· * A1 (ix2 r (0 : Fin 1))) (Finset.sum_congr rfl fun k _ => ?_)
  rw [h0 p k r hi0, h1 k s]

/-- WHAT POINT t WRITES BACK is block t of the message array of the arrays as the region finds them. -/
theorem flushed_eq (c : Dev nD) (t : Fin cfg0.N) :
    (dat0 V c).flushed 3 t = ((cfg0.win 3).blk t).view.read (Elt Ideal) (msg (V c main_arg0) (V c main_arg2) (V c main_arg1)) := by
  show (cfg0.win 3).cut (grid0.coords t) ((dat0 V c).after 3 t) = _
  rw [after0_3]
  unfold out0_3
  rw [View.canon_unit_zero zeros2]
  simp only [View.ld_unit_zero (S := S5000x128) zeros2, View.ld_unit_zero (S := S128x128) zeros2, View.ld_unit_zero (S := S5000x1) zeros2]
  obtain ⟨e00, e01, e10, e11, e20, e21, e30, e31⟩ := idx_facts t
  funext j
  show k0_pay1 (F := Ideal) (iblk0 V c 0 t) (iblk0 V c 1 t) (iblk0 V c 2 t) j
      = msg (V c main_arg0) (V c main_arg2) (V c main_arg1) (((cfg0.win 3).blk t).view.emb j)
  refine entry_eq (V c main_arg0) (V c main_arg2) (V c main_arg1) (iblk0 V c 0 t) (iblk0 V c 1 t) (iblk0 V c 2 t) t.val
    ?_ ?_ ?_ j (((cfg0.win 3).blk t).view.emb j) ?_ ?_
  · intro p k r hr
    have h : ((cfg0.win 0).blk t).view.emb (ix2 p k) = ix2 r k := by
      funext a; apply Fin.ext
      match a with
      | ⟨0, _⟩ => show win0_0.index t (0 : Fin 2) * 5000 + 1 * p.val = r.val; omega
      | ⟨1, _⟩ => show win0_0.index t (1 : Fin 2) * 128 + 1 * k.val = k.val; omega
    show V c main_arg0 (((cfg0.win 0).blk t).view.emb (ix2 p k)) = V c main_arg0 (ix2 r k)
    rw [h]
  · intro k q
    have h : ((cfg0.win 1).blk t).view.emb (ix2 k q) = ix2 k q := by
      funext a; apply Fin.ext
      match a with
      | ⟨0, _⟩ => show win0_1.index t (0 : Fin 2) * 128 + 1 * k.val = k.val; omega
      | ⟨1, _⟩ => show win0_1.index t (1 : Fin 2) * 128 + 1 * q.val = q.val; omega
    show V c main_arg2 (((cfg0.win 1).blk t).view.emb (ix2 k q)) = V c main_arg2 (ix2 k q)
    rw [h]
  · intro p r hr
    have h : ((cfg0.win 2).blk t).view.emb (ix2 p (0 : Fin 1)) = ix2 r (0 : Fin 1) := by
      funext a; apply Fin.ext
      match a with
      | ⟨0, _⟩ => show win0_2.index t (0 : Fin 2) * 5000 + 1 * p.val = r.val; omega
      | ⟨1, _⟩ => show win0_2.index t (1 : Fin 2) * 1 + 1 * 0 = 0; omega
    show V c main_arg1 (((cfg0.win 2).blk t).view.emb (ix2 p (0 : Fin 1))) = V c main_arg1 (ix2 r (0 : Fin 1))
    rw [h]
  · show win0_3.index t (0 : Fin 2) * 5000 + 1 * (j 0).val = t.val * 5000 + (j 0).val
    omega
  · show win0_3.index t (1 : Fin 2) * 128 + 1 * (j 1).val = (j 1).val
    omega

/-- An index of the array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v0).slice (win0_3.rect t)).set ↔ _
  rw [View.set_slice_whole, Rect.mem_set_unit]
  exact Iff.rfl

/-- Every row lies in the row block of the point numbered (row / 5000). -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_3 _, ?_⟩
  rw [mem_blk]
  obtain ⟨-, -, -, -, -, -, e30, e31⟩ := idx_facts ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e30]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e31]; omega

/-- THE ARRAY after region 0: the message array of the arrays the region found. -/
theorem final (c : Dev nD) :
    (dat0 V c).arrAt 3 cfg0.N = msg (V c main_arg0) (V c main_arg2) (V c main_arg1) :=
  (dat0 V c).arrAt_eq_of_cover 3 (msg (V c main_arg0) (V c main_arg2) (V c main_arg1)) (fun t _ => flushed_eq V c t) cover

end Cert.KernelIdeal.Blocks0

end
-- ==== Proof.Blocks1.lean ====
/-
  Region 1's output array after the region, as ONE function of the arrays the region finds.

  Again 20 points, point t on rows 5000·t … 5000·t + 4999: it stages that row block of the aggregated array and of
  the normalisation column and the whole bias vector, and writes back that row block of the result.  What it writes
  at (p, q) of the block is the output entry (5000·t + p, q); the 20 row blocks tile the array.
-/
import proofs.«134280_j30966714204803_2_alg».proof.Proof.Gen.KernelIdeal.Frame
import proofs.«134280_j30966714204803_2_alg».proof.Proof.Pay
import Idealize.ShloMosaic.Lib.Pipeline.Value

set_option maxRecDepth 16384

noncomputable section

open scoped BigOperators

namespace Cert.KernelIdeal.Blocks1

open Cert.KernelIdeal Cert.KernelIdeal.Gen Idealize.ShloMosaic Idealize.ShloMosaic.TcCoe Idealize.SL.Sem Idealize.ShloMosaic.ValueIdx
open Idealize.ShloMosaic.Pipeline (Dat)
open Cert.GraphSpec

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The printed index maps over the grid: the three row-blocked windows are at row block t, column block 0; the
    bias window stays at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- One block entry is one output entry, given where the three staged blocks sit in their arrays. -/
theorem entry_eq (N : (⟨2, ![100000, 128]⟩ : Shape).Idx → EReal) (A1 : (⟨2, ![100000, 1]⟩ : Shape).Idx → EReal)
    (B : (⟨1, ![128]⟩ : Shape).Idx → EReal)
    (x0 : Vec Ideal S5000x128 .f32) (x1 : Vec Ideal S5000x1 .f32) (x2 : Vec Ideal S128 .f32) (n : Nat)
    (h0 : ∀ (p : Fin 5000) (q : Fin 128) (r : Fin 100000), r.val = n * 5000 + p.val → x0 (ix2 p q) = N (ix2 r q))
    (h1 : ∀ (p : Fin 5000) (r : Fin 100000), r.val = n * 5000 + p.val → x1 (ix2 p (0 : Fin 1)) = A1 (ix2 r (0 : Fin 1)))
    (h2 : ∀ (q : Fin 128), x2 (ix1 q) = B (ix1 q))
    (j : S5000x128.Idx) (i : S100000x128.Idx) (hi0 : (i 0).val = n * 5000 + (j 0).val) (hi1 : (i 1).val = (j 1).val) :
    k1_pay1 (F := Ideal) x0 x1 x2 j = out N A1 B i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  obtain rfl : s = q := Fin.ext hi1
  rw [Cert.KernelIdeal.Pay.pay1_at, out_ix2]
  unfold outAt
  rw [h0 p s r hi0, h1 p r hi0, h2 s]

/-- WHAT POINT t WRITES BACK is block t of the output array of the arrays as the region finds them. -/
theorem flushed_eq (c : Dev nD) (t : Fin cfg1.N) :
    (dat1 V c).flushed 3 t = ((cfg1.win 3).blk t).view.read (Elt Ideal) (out (V c main_v11) (V c main_arg1) (V c main_arg3)) := by
  show (cfg1.win 3).cut (grid1.coords t) ((dat1 V c).after 3 t) = _
  rw [after1_3]
  unfold out1_3
  rw [View.canon_unit_zero zeros2]
  simp only [View.ld_unit_zero (S := S5000x128) zeros2, View.ld_unit_zero (S := S5000x1) zeros2, View.ld_unit_zero (S := S128) zeros1]
  obtain ⟨e00, e01, e10, e11, e20, e30, e31⟩ := idx_facts t
  funext j
  show k1_pay1 (F := Ideal) (iblk1 V c 0 t) (iblk1 V c 1 t) (iblk1 V c 2 t) j
      = out (V c main_v11) (V c main_arg1) (V c main_arg3) (((cfg1.win 3).blk t).view.emb j)
  refine entry_eq (V c main_v11) (V c main_arg1) (V c main_arg3) (iblk1 V c 0 t) (iblk1 V c 1 t) (iblk1 V c 2 t) t.val
    ?_ ?_ ?_ j (((cfg1.win 3).blk t).view.emb j) ?_ ?_
  · intro p q r hr
    have h : ((cfg1.win 0).blk t).view.emb (ix2 p q) = ix2 r q := by
      funext a; apply Fin.ext
      match a with
      | ⟨0, _⟩ => show win1_0.index t (0 : Fin 2) * 5000 + 1 * p.val = r.val; omega
      | ⟨1, _⟩ => show win1_0.index t (1 : Fin 2) * 128 + 1 * q.val = q.val; omega
    show V c main_v11 (((cfg1.win 0).blk t).view.emb (ix2 p q)) = V c main_v11 (ix2 r q)
    rw [h]
  · intro p r hr
    have h : ((cfg1.win 1).blk t).view.emb (ix2 p (0 : Fin 1)) = ix2 r (0 : Fin 1) := by
      funext a; apply Fin.ext
      match a with
      | ⟨0, _⟩ => show win1_1.index t (0 : Fin 2) * 5000 + 1 * p.val = r.val; omega
      | ⟨1, _⟩ => show win1_1.index t (1 : Fin 2) * 1 + 1 * 0 = 0; omega
    show V c main_arg1 (((cfg1.win 1).blk t).view.emb (ix2 p (0 : Fin 1))) = V c main_arg1 (ix2 r (0 : Fin 1))
    rw [h]
  · intro q
    have h : ((cfg1.win 2).blk t).view.emb (ix1 q) = ix1 q := by
      funext a; apply Fin.ext
      match a with
      | ⟨0, _⟩ => show win1_2.index t (0 : Fin 1) * 128 + 1 * q.val = q.val; omega
    show V c main_arg3 (((cfg1.win 2).blk t).view.emb (ix1 q)) = V c main_arg3 (ix1 q)
    rw [h]
  · show win1_3.index t (0 : Fin 2) * 5000 + 1 * (j 0).val = t.val * 5000 + (j 0).val
    omega
  · show win1_3.index t (1 : Fin 2) * 128 + 1 * (j 1).val = (j 1).val
    omega

/-- An index of the array is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v12).slice (win1_3.rect t)).set ↔ _
  rw [View.set_slice_whole, Rect.mem_set_unit]
  exact Iff.rfl

/-- Every row lies in the row block of the point numbered (row / 5000). -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_3 _, ?_⟩
  rw [mem_blk]
  obtain ⟨-, -, -, -, -, e30, e31⟩ := idx_facts ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e30]; show (i 0).val / 5000 * 5000 ≤ (i 0).val ∧ (i 0).val < (i 0).val / 5000 * 5000 + 5000; omega
  | ⟨1, _⟩ =>
    show win1_3.index _ (1 : Fin 2) * 128 ≤ (i 1).val ∧ (i 1).val < win1_3.index _ (1 : Fin 2) * 128 + 128
    rw [e31]; omega

/-- THE ARRAY after region 1: the output array of the arrays the region found. -/
theorem final (c : Dev nD) :
    (dat1 V c).arrAt 3 cfg1.N = out (V c main_v11) (V c main_arg1) (V c main_arg3) :=
  (dat1 V c).arrAt_eq_of_cover 3 (out (V c main_v11) (V c main_arg1) (V c main_arg3)) (fun t _ => flushed_eq V c t) cover

end Cert.KernelIdeal.Blocks1

end
-- ==== Proof.Between.lean ====
/-
  The host stretch between the two regions, and the arrays each region is entered with.

  After region 0 the message buffer holds what the region's write-backs leave; the host stretch then gathers its rows
  at the source indices (a negative index wrapped by adding 100000), widens them (the identity on extended reals) and
  scatter-adds them into the destination rows of a zero array: the aggregated array, which region 1 reads together
  with the normalisation column and the bias vector, both still as launched (no operation and no write-back touches
  an argument).  The aggregation is carried as ONE function of the message array and the two index arrays and is
  never opened.
-/
import proofs.«134280_j30966714204803_2_alg».proof.Proof.Gen.KernelIdeal.Frame
import Idealize.ShloMosaic.Lib.StableHlo.Run

set_option maxRecDepth 16384

noncomputable section

namespace Cert.KernelIdeal.Between

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- The aggregation: rows of the message array M gathered at the source indices s (a negative index wrapped by adding
    100000), widened, and scatter-added into the destination rows t of a zero array. -/
def agg (M : (⟨S100000x128, .bf16⟩ : BufTy).Contents (Elt F)) (s t : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 t)
    (extf .f32 (Host.gather gather_S100000x128_S1600000x1_S1600000x128_1_0_n_n_0_1_1128 M
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s))) bitsLt_bf16_f32)

/-- Region 1 finds, in the aggregated buffer, the aggregation of what region 0 left in the message buffer. -/
theorem entry_agg (c : Dev nD) :
    V2 m ρ c main_v11 = agg (W1 m ρ c (Proc.devRef .tc main_v0)) (m ((c : Thread nD τ).loc main_arg4)) (m ((c : Thread nD τ).loc main_arg5)) := by
  show StableHlo.after hostOps1 (W1 m ρ c) (Proc.devRef .tc main_v11) = _
  after_results
  rw [W1_of_ne m ρ c main_arg4 (by decide), W1_of_ne m ρ c main_arg5 (by decide)]
  rfl

/-- Region 1 finds the normalisation column as launched: region 0 staged it and never wrote it back. -/
theorem entry_norm (c : Dev nD) : V2 m ρ c main_arg1 = m ((c : Thread nD τ).loc main_arg1) := by
  show StableHlo.after hostOps1 (W1 m ρ c) (Proc.devRef .tc main_arg1) = _
  after_results
  exact (W1_arr m ρ c 2).trans (((dat0 (V0 m ρ) c).arrAt_in 2 rfl _).trans (A_eq0 (V0 m ρ) c 2))

/-- Region 1 finds the bias vector as launched: nothing before it touches it. -/
theorem entry_bias (c : Dev nD) : V2 m ρ c main_arg3 = m ((c : Thread nD τ).loc main_arg3) := by
  show StableHlo.after hostOps1 (W1 m ρ c) (Proc.devRef .tc main_arg3) = _
  after_results
  exact W1_of_ne m ρ c main_arg3 (by decide)

/-- The message buffer after region 0 is what its write-backs leave. -/
theorem exit_msg (c : Dev nD) : W1 m ρ c (Proc.devRef .tc main_v0) = (dat0 (V0 m ρ) c).arrAt 3 cfg0.N := W1_arr m ρ c 3

/-- The result buffer after region 1 is what its write-backs leave. -/
theorem exit_out (c : Dev nD) : W3 m ρ c (Proc.devRef .tc main_v12) = (dat1 (V2 m ρ) c).arrAt 3 cfg1.N := W3_arr m ρ c 3

end Cert.KernelIdeal.Between

end
-- ==== Proof.KValue.lean ====
/-
  The idealized kernel program's result, as one function of its argument arrays.

  Read back through the segment boundaries: the result buffer holds what region 1's write-backs leave, which is the
  output array of the aggregated array, the normalisation column and the bias vector; the aggregated array is the
  aggregation of what region 0's write-backs left in the message buffer, which is the message array of the features,
  weights and normalisation column as launched.
-/
import proofs.«134280_j30966714204803_2_alg».proof.Proof.KRun
import proofs.«134280_j30966714204803_2_alg».proof.Proof.Blocks0
import proofs.«134280_j30966714204803_2_alg».proof.Proof.Blocks1
import proofs.«134280_j30966714204803_2_alg».proof.Proof.Between

set_option maxRecDepth 16384

noncomputable section

namespace Cert.KernelIdeal.KValue

open Cert.KernelIdeal Cert.KernelIdeal.Gen Idealize.ShloMosaic Idealize.ShloMosaic.TcCoe Idealize.SL.Sem
open Cert.GraphSpec

variable (m : (ℓ : Loc nD τ sig) → Buf (Elt Ideal) ℓ) (ρ : Dev nD → PrngReg)

/-- The result buffer's contents at the last segment boundary. -/
theorem result_eq (c : Dev nD) :
    W3 m ρ c (Proc.devRef .tc main_v12)
      = out (Between.agg (F := Ideal) (msg (m ((c : Thread nD τ).loc main_arg0)) (m ((c : Thread nD τ).loc main_arg2)) (m ((c : Thread nD τ).loc main_arg1)))
            (m ((c : Thread nD τ).loc main_arg4)) (m ((c : Thread nD τ).loc main_arg5)))
          (m ((c : Thread nD τ).loc main_arg1)) (m ((c : Thread nD τ).loc main_arg3)) :=
  calc W3 m ρ c (Proc.devRef .tc main_v12)
      = (dat1 (V2 m ρ) c).arrAt 3 cfg1.N := Between.exit_out m ρ c
    _ = out (V2 m ρ c main_v11) (V2 m ρ c main_arg1) (V2 m ρ c main_arg3) := Blocks1.final (V2 m ρ) c
    _ = out (Between.agg (F := Ideal) (W1 m ρ c (Proc.devRef .tc main_v0)) (m ((c : Thread nD τ).loc main_arg4)) (m ((c : Thread nD τ).loc main_arg5)))
          (m ((c : Thread nD τ).loc main_arg1)) (m ((c : Thread nD τ).loc main_arg3)) := by
        rw [Between.entry_agg, Between.entry_norm, Between.entry_bias]
    _ = out (Between.agg (F := Ideal) (msg (V0 m ρ c main_arg0) (V0 m ρ c main_arg2) (V0 m ρ c main_arg1))
            (m ((c : Thread nD τ).loc main_arg4)) (m ((c : Thread nD τ).loc main_arg5)))
          (m ((c : Thread nD τ).loc main_arg1)) (m ((c : Thread nD τ).loc main_arg3)) := by
        rw [Between.exit_msg, Blocks0.final (V0 m ρ) c]
    _ = _ := rfl

/-- Every weakly fair execution of the idealized kernel program terminates with the result array at that function of
    the arguments and the arguments unchanged. -/
theorem run : θ_run defs (onTc (τ := τ) (main (F := Ideal))) ⟨m, fun _ => 0, ρ⟩ (fun r => ∀ c : Dev nD,
      r.2.mem ((c.tc : Thread nD τ).loc main_v12)
        = out (Between.agg (F := Ideal) (msg (m ((c : Thread nD τ).loc main_arg0)) (m ((c : Thread nD τ).loc main_arg2)) (m ((c : Thread nD τ).loc main_arg1)))
              (m ((c : Thread nD τ).loc main_arg4)) (m ((c : Thread nD τ).loc main_arg5)))
            (m ((c : Thread nD τ).loc main_arg1)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Cert.KernelIdeal.KRun.run_named m ρ)

end Cert.KernelIdeal.KValue

end
-- ==== Proof.RefRun.lean ====
import proofs.«134280_j30966714204803_2_alg».proof.Proof.Gen.ReferenceIdeal
import Idealize.ShloMosaic.Lib.StableHlo.Run

/-!
# The reference program's run, read back

The reference @main is a straight line of tensor operations: a dense product `x · w`, a row scaling by `d`,
a gather of the scaled rows at the (wrapped) source indices, a scatter-add of the gathered rows at the
destination indices into a zero array, a second row scaling by `d`, a bias added along the columns, and a
leaky rectifier of slope 0.2. The rectifier is an outlined function whose body is six operations and a
call of a select; a call executes the callee's body on the operands, so the whole program is ONE list of
29 operations over the buffers of @main and of the call's record.

`ops` is that list, `main_eq` says @main is its sequencing, and `run` reads the run back: every weakly fair
execution terminates with the result buffer at `out` of the six argument arrays' launch contents and the
arguments unchanged. `pre` is the value before the rectifier and `out` the rectifier applied to it.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 22 own operations in order and, at the call, the rectifier's six and the select it calls, over the
    call's record: 29 in all. -/
abbrev ops : List (HloOp τ sig (Elt F)) :=
  [ binary main_arg0 main_arg2 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg1 main_v1 (broadcastInDim S100000x128 ![0, 1] bcast_S100000x1_S100000x128_0_1 : (⟨S100000x1, .f32⟩ : BufTy).Contents (Elt F) → (⟨S100000x128, .f32⟩ : BufTy).Contents (Elt F)),
    binary main_v0 main_v1 main_v2 (mulf : (⟨S100000x128, .f32⟩ : BufTy).Contents (Elt F) → (⟨S100000x128, .f32⟩ : BufTy).Contents (Elt F) → (⟨S100000x128, .f32⟩ : BufTy).Contents (Elt F)),
    nullary main_c (constantI S_ 32 0#32),
    unary main_c main_v3 (broadcastInDim S1600000 ![] bcast_S_S1600000 : (⟨S_, .i32⟩ : BufTy).Contents (Elt F) → (⟨S1600000, .i32⟩ : BufTy).Contents (Elt F)),
    binary main_arg4 main_v3 main_v4 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v5 (broadcastInDim S1600000 ![] bcast_S_S1600000 : (⟨S_, .i32⟩ : BufTy).Contents (Elt F) → (⟨S1600000, .i32⟩ : BufTy).Contents (Elt F)),
    binary main_arg4 main_v5 main_v6 (addi : (⟨S1600000, .i32⟩ : BufTy).Contents (Elt F) → (⟨S1600000, .i32⟩ : BufTy).Contents (Elt F) → (⟨S1600000, .i32⟩ : BufTy).Contents (Elt F)),
    ternary main_v4 main_v6 main_arg4 main_v7 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v7 main_v8 (broadcastInDim S1600000x1 ![0] bcast_S1600000_S1600000x1_0 : (⟨S1600000, .i32⟩ : BufTy).Contents (Elt F) → (⟨S1600000x1, .i32⟩ : BufTy).Contents (Elt F)),
    binary main_v2 main_v8 main_v9 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v10 (broadcastInDim S100000x128 ![] bcast_S_S100000x128 : (⟨S_, .f32⟩ : BufTy).Contents (Elt F) → (⟨S100000x128, .f32⟩ : BufTy).Contents (Elt F)),
    unary main_arg5 main_v11 (broadcastInDim S1600000x1 ![0] bcast_S1600000_S1600000x1_0 : (⟨S1600000, .i32⟩ : BufTy).Contents (Elt F) → (⟨S1600000x1, .i32⟩ : BufTy).Contents (Elt F)),
    ternary main_v10 main_v11 main_v9 main_v12 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg1 main_v13 (broadcastInDim S100000x128 ![0, 1] bcast_S100000x1_S100000x128_0_1 : (⟨S100000x1, .f32⟩ : BufTy).Contents (Elt F) → (⟨S100000x128, .f32⟩ : BufTy).Contents (Elt F)),
    binary main_v12 main_v13 main_v14 (mulf : (⟨S100000x128, .f32⟩ : BufTy).Contents (Elt F) → (⟨S100000x128, .f32⟩ : BufTy).Contents (Elt F) → (⟨S100000x128, .f32⟩ : BufTy).Contents (Elt F)),
    unary main_arg3 main_v15 (broadcastInDim S1x128 ![1] bcast_S128_S1x128_1 : (⟨S128, .f32⟩ : BufTy).Contents (Elt F) → (⟨S1x128, .f32⟩ : BufTy).Contents (Elt F)),
    unary main_v15 main_v16 (broadcastInDim S100000x128 ![0, 1] bcast_S1x128_S100000x128_0_1 : (⟨S1x128, .f32⟩ : BufTy).Contents (Elt F) → (⟨S100000x128, .f32⟩ : BufTy).Contents (Elt F)),
    binary main_v14 main_v16 main_v17 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x3E4CCCCD#32),
    TRef.nullary main_call0.cst (constant S_ .f32 0x00000000#32),
    TRef.unary main_call0.cst main_call0.v0 (broadcastInDim S100000x128 ![] bcast_S_S100000x128),
    TRef.binary (.of main_v17) main_call0.v0 main_call0.v1 (cmpf .oge),
    TRef.unary (.of main_cst_1) main_call0.v2 id,
    TRef.unary main_call0.v2 main_call0.v3 (broadcastInDim S100000x128 ![] bcast_S_S100000x128),
    TRef.binary main_call0.v3 (.of main_v17) main_call0.v4 mulf,
    TRef.ternary main_call0.v1 (.of main_v17) main_call0.v4 main_call0.call0.v0 select ]

-- twenty-nine binds re-associated: the rewrite under the chain recurses once per statement
set_option maxRecDepth 1024 in
/-- @main is that straight line: the two functions' definitions unfolded at their calls and the record at its
    fields, both sides are one chain of steps once sequencing is reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., binary_bufs_sub ..,
    unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..⟩

/-- The value before the rectifier, of the six argument arrays: with `h = (x · w) ⊙ d` (the product's rows scaled),
    `s` the source indices with a negative one wrapped by the row count, the rows `h[s e]` gathered per edge
    `e` and added into a zero array at row `t e`, that sum scaled by `d` again and the bias `b` added along
    the columns. -/
def pre (x : (⟨S100000x128, .f32⟩ : BufTy).Contents (Elt F)) (d : (⟨S100000x1, .f32⟩ : BufTy).Contents (Elt F))
    (w : (⟨S128x128, .f32⟩ : BufTy).Contents (Elt F)) (b : (⟨S128, .f32⟩ : BufTy).Contents (Elt F))
    (s : (⟨S1600000, .i32⟩ : BufTy).Contents (Elt F)) (t : (⟨S1600000, .i32⟩ : BufTy).Contents (Elt F)) :
    (⟨S100000x128, .f32⟩ : BufTy).Contents (Elt F) :=
  addf
    (mulf
      (Host.scatterAdd scatter_S100000x128_S1600000x1_S1600000x128_1_0_0_1
        (broadcastInDim S100000x128 ![] bcast_S_S100000x128 (constant S_ .f32 0x00000000#32))
        (broadcastInDim S1600000x1 ![0] bcast_S1600000_S1600000x1_0 t)
        (Host.gather gather_S100000x128_S1600000x1_S1600000x128_1_0_n_n_0_1_1128
          (mulf (Host.dotGeneral dot_S100000x128_S128x128_S100000x128_1_0_0_1_n_n none x w)
            (broadcastInDim S100000x128 ![0, 1] bcast_S100000x1_S100000x128_0_1 d))
          (broadcastInDim S1600000x1 ![0] bcast_S1600000_S1600000x1_0
            (select (cmpi .slt s (broadcastInDim S1600000 ![] bcast_S_S1600000 (constantI S_ 32 0#32)))
              (addi s (broadcastInDim S1600000 ![] bcast_S_S1600000 (constantI S_ 32 100000#32))) s))))
      (broadcastInDim S100000x128 ![0, 1] bcast_S100000x1_S100000x128_0_1 d))
    (broadcastInDim S100000x128 ![0, 1] bcast_S1x128_S100000x128_0_1 (broadcastInDim S1x128 ![1] bcast_S128_S1x128_1 b))

/-- The result array, of the six argument arrays: the rectifier of slope 0.2 applied to `pre`, elementwise
    `z` where `z ≥ 0` and `0.2 · z` elsewhere. -/
def out (x : (⟨S100000x128, .f32⟩ : BufTy).Contents (Elt F)) (d : (⟨S100000x1, .f32⟩ : BufTy).Contents (Elt F))
    (w : (⟨S128x128, .f32⟩ : BufTy).Contents (Elt F)) (b : (⟨S128, .f32⟩ : BufTy).Contents (Elt F))
    (s : (⟨S1600000, .i32⟩ : BufTy).Contents (Elt F)) (t : (⟨S1600000, .i32⟩ : BufTy).Contents (Elt F)) :
    (⟨S100000x128, .f32⟩ : BufTy).Contents (Elt F) :=
  select
    (cmpf .oge (pre x d w b s t) (broadcastInDim S100000x128 ![] bcast_S_S100000x128 (constant S_ .f32 0x00000000#32)))
    (pre x d w b s t)
    (mulf (broadcastInDim S100000x128 ![] bcast_S_S100000x128 (id (constant S_ .f32 0x3E4CCCCD#32))) (pre x d w b s t))

-- the gather, the scatter-add and the product are folds and searches over the operands' elements: they are kept
-- folded while the fold of the operations' results is compared with `out` (the equation never looks inside them)
attribute [local irreducible] Host.gather Host.scatterAdd in
set_option maxRecDepth 8192 in
/-- The fold of the operations' results at the result buffer is `out` of the contents at the argument buffers: each
    operation's result at its own buffer is its function's value and at any other buffer what was there, and the
    typed references' transports are the identity at these literal references. -/
theorem out_eq (V : Valuation τ sig (Elt F)) :
    after ops V (main_v18 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

/-- On every device, for any float values, from any memory with zero counters: every weakly fair execution of
    @main terminates with the result at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v18).trans (out_eq _),
      (h c main_arg0).trans (by after_results),
      (h c main_arg1).trans (by after_results),
      (h c main_arg2).trans (by after_results),
      (h c main_arg3).trans (by after_results),
      (h c main_arg4).trans (by after_results),
      (h c main_arg5).trans (by after_results)⟩)
    (run_seq scopedRefs_eq scopedSems_eq defs main (fun _ => ops) main_eq (fun _ => ops_sub) m ρ)

end Cert.ReferenceIdeal.RefRun

end
-- ==== Proof.RefValue.lean ====
/-
  The reference's result term, on the extended reals, is the specification's function, index by index.

  The result term is the leaky rectifier of  pre,  and  pre  is  A ⊙ norm + bias  where  A  is the aggregation (gather
  at the wrapped source indices, scatter-add at the destination indices into a zero array) of the message array
  M = (x · w) ⊙ norm.  Three facts are read at an index (r, c):
    * the dense product: Σₖ x(r, k) · w(k, c), the contraction's one axis re-indexed by its coordinate;
    * the normalisation column [100000, 1] broadcast along the 128 columns: norm(r, 0);
    * the bias [128] placed as one row and broadcast down the rows: bias(c).
  The aggregation itself is never read: both sides carry the same term  agg M s t, and it is abstracted to an
  arbitrary array before anything is read at an index.
-/
import proofs.«134280_j30966714204803_2_alg».proof.Proof.RefRun
import proofs.«134280_j30966714204803_2_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The dense product's dimension numbers: rows × contraction times contraction × columns, no batch axis. -/
abbrev dd : DotDims S100000x128 S128x128 S100000x128 := dot_S100000x128_S128x128_S100000x128_1_0_0_1_n_n

/-- The left operand's index at output (r, c) and contraction position κ: row r … -/
theorem lhs_row (i : S100000x128.Idx) (κ : dd.contr.Idx) : (dd.lhsIdx i κ 0).val = (i 0).val := by
  unfold DotDims.lhsIdx
  rw [dif_neg (show ¬(0 : Fin S100000x128.rank) ∈ dd.lhsBatch by decide), dif_pos (show (0 : Fin S100000x128.rank) ∈ dd.lhsNonContracting by decide)]
  rfl
/-- … and the contracted coordinate. -/
theorem lhs_col (i : S100000x128.Idx) (κ : dd.contr.Idx) : (dd.lhsIdx i κ 1).val = (κ ⟨0, by decide⟩).val :=
  dd.lhsIdx_val_of_single rfl i κ
/-- The right operand's: the contracted coordinate … -/
theorem rhs_row (i : S100000x128.Idx) (κ : dd.contr.Idx) : (dd.rhsIdx i κ 0).val = (κ ⟨0, by decide⟩).val :=
  dd.rhsIdx_val_of_single rfl i κ
/-- … and column c. -/
theorem rhs_col (i : S100000x128.Idx) (κ : dd.contr.Idx) : (dd.rhsIdx i κ 1).val = (i 1).val := by
  unfold DotDims.rhsIdx
  rw [dif_neg (show ¬(1 : Fin S128x128.rank) ∈ dd.rhsBatch by decide), dif_pos (show (1 : Fin S128x128.rank) ∈ dd.rhsNonContracting by decide)]
  rfl

/-- The dense product at (r, c): Σₖ a(r, k) · b(k, c). -/
theorem dot_at (a : FVec Ideal S100000x128 .f32) (b : FVec Ideal S128x128 .f32) (r : Fin 100000) (c : Fin 128) :
    Host.dotGeneral (F := Ideal) dd none a b (ix2 r c) = ∑ k : Fin 128, a (ix2 r k) * b (ix2 k c) := by
  refine (Ideal.dotGeneral_apply dd none .single a b (ix2 r c)).trans ?_
  rw [← Equiv.sum_comp (contrEquiv1 dd 128 rfl rfl).symm]
  refine Finset.sum_congr rfl fun k _ => ?_
  have hk := contrEquiv1_symm_val dd 128 rfl rfl k
  have el : dd.lhsIdx (ix2 r c) ((contrEquiv1 dd 128 rfl rfl).symm k) = ix2 r k := funext fun ax => Fin.ext (by
    match ax with
    | ⟨0, _⟩ => exact lhs_row _ _
    | ⟨1, _⟩ => exact (lhs_col _ _).trans hk)
  have er : dd.rhsIdx (ix2 r c) ((contrEquiv1 dd 128 rfl rfl).symm k) = ix2 k c := funext fun ax => Fin.ext (by
    match ax with
    | ⟨0, _⟩ => exact (rhs_row _ _).trans hk
    | ⟨1, _⟩ => exact rhs_col _ _)
  rw [el, er]

/-- A [100000, 1] column broadcast along the 128 columns reads, at (r, c), the column at row r. -/
theorem bcast_col (v : S100000x1.Idx → EReal) (r : Fin 100000) (c : Fin 128) :
    broadcastInDim S100000x128 ![0, 1] bcast_S100000x1_S100000x128_0_1 v (ix2 r c) = v (ix2 r (0 : Fin 1)) := by
  refine broadcastInDim_apply _ _ v (ix2 r c) (ix2 r (0 : Fin 1)) fun ax => ?_
  match ax with
  | ⟨0, _⟩ => rfl
  | ⟨1, _⟩ => rfl

/-- A [128] vector placed as one row and broadcast down the 100000 rows reads, at (r, c), the vector at c. -/
theorem bcast_row (v : S128.Idx → EReal) (r : Fin 100000) (c : Fin 128) :
    broadcastInDim S100000x128 ![0, 1] bcast_S1x128_S100000x128_0_1 (broadcastInDim S1x128 ![1] bcast_S128_S1x128_1 v) (ix2 r c)
      = v (ix1 c) := by
  refine (broadcastInDim_apply _ _ _ (ix2 r c) (ix2 (0 : Fin 1) c) fun ax => ?_).trans
    (broadcastInDim_apply _ _ v (ix2 (0 : Fin 1) c) (ix1 c) fun ax => ?_)
  · match ax with
    | ⟨0, _⟩ => rfl
    | ⟨1, _⟩ => rfl
  · match ax with
    | ⟨0, _⟩ => rfl

/-- A scalar constant broadcast to the whole array reads, everywhere, the extended real its word encodes. -/
theorem splat_at (bits : BitVec 32) (i : S100000x128.Idx) :
    broadcastInDim S100000x128 ![] bcast_S_S100000x128 (constant (F := Ideal) S_ .f32 bits) i = Ideal.ofBits .f32 bits := rfl

-- the gather and the scatter-add are folds over 1600000 edges: no step below looks inside them
attribute [local irreducible] Host.gather Host.scatterAdd

/-- The aggregation both programs share: rows of M gathered at the source indices (a negative index wrapped by adding
    100000), scatter-added into the destination rows of a zero array. NEVER unfolded. -/
def agg (M : (⟨S100000x128, .f32⟩ : BufTy).Contents (Elt Ideal)) (s t : (⟨S1600000, .i32⟩ : BufTy).Contents (Elt Ideal)) : (⟨S100000x128, .f32⟩ : BufTy).Contents (Elt Ideal) :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 t)
    (Host.gather gather_S100000x128_S1600000x1_S1600000x128_1_0_n_n_0_1_1128 M
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The scaled dense product is the specification's message array: at (r, c), (Σₖ x(r, k) · w(k, c)) · norm(r). -/
theorem msg_eq (x : (⟨S100000x128, .f32⟩ : BufTy).Contents (Elt Ideal)) (d : (⟨S100000x1, .f32⟩ : BufTy).Contents (Elt Ideal)) (w : (⟨S128x128, .f32⟩ : BufTy).Contents (Elt Ideal)) :
    mulf (F := Ideal) (φ := .f32) (Host.dotGeneral (F := Ideal) (φ₁ := .f32) (φ₂ := .f32) dot_S100000x128_S128x128_S100000x128_1_0_0_1_n_n none x w) (broadcastInDim S100000x128 ![0, 1] bcast_S100000x1_S100000x128_0_1 d) = Cert.GraphSpec.msg x w d := by
  funext i
  obtain ⟨r, c, rfl⟩ : ∃ (r : Fin 100000) (c : Fin 128), i = ix2 r c := ⟨i 0, i 1, eq_ix2 i⟩
  rw [Cert.GraphSpec.msg_ix2]
  unfold Cert.GraphSpec.msgAt
  rw [mulf_apply, dot_at, bcast_col]

/-- The value before the rectifier is the aggregated message array scaled by the normalisation again, plus the bias. -/
theorem pre_eq (x : (⟨S100000x128, .f32⟩ : BufTy).Contents (Elt Ideal)) (d : (⟨S100000x1, .f32⟩ : BufTy).Contents (Elt Ideal))
    (w : (⟨S128x128, .f32⟩ : BufTy).Contents (Elt Ideal)) (b : (⟨S128, .f32⟩ : BufTy).Contents (Elt Ideal))
    (s t : (⟨S1600000, .i32⟩ : BufTy).Contents (Elt Ideal)) :
    Cert.ReferenceIdeal.RefRun.pre (F := Ideal) x d w b s t
      = addf (F := Ideal) (φ := .f32) (mulf (F := Ideal) (φ := .f32) (agg (Cert.GraphSpec.msg x w d) s t) (broadcastInDim S100000x128 ![0, 1] bcast_S100000x1_S100000x128_0_1 d)) (broadcastInDim S100000x128 ![0, 1] bcast_S1x128_S100000x128_0_1 (broadcastInDim S1x128 ![1] bcast_S128_S1x128_1 b)) := by
  unfold Cert.ReferenceIdeal.RefRun.pre agg
  rw [← msg_eq x d w]

/-- The reference's result term is the specification's output array of the aggregated message array: at (r, c) the
    rectifier of  A(r, c) · norm(r) + bias(c),  the rectifier's test  v ≥ 0  being the specification's  v > 0  as a
    function. -/
theorem out_eq_spec (x : (⟨S100000x128, .f32⟩ : BufTy).Contents (Elt Ideal)) (d : (⟨S100000x1, .f32⟩ : BufTy).Contents (Elt Ideal))
    (w : (⟨S128x128, .f32⟩ : BufTy).Contents (Elt Ideal)) (b : (⟨S128, .f32⟩ : BufTy).Contents (Elt Ideal))
    (s t : (⟨S1600000, .i32⟩ : BufTy).Contents (Elt Ideal)) :
    Cert.ReferenceIdeal.RefRun.out (F := Ideal) x d w b s t = Cert.GraphSpec.out (agg (Cert.GraphSpec.msg x w d) s t) d b := by
  funext i
  obtain ⟨r, c, rfl⟩ : ∃ (r : Fin 100000) (c : Fin 128), i = ix2 r c := ⟨i 0, i 1, eq_ix2 i⟩
  rw [Cert.GraphSpec.out_ix2]
  unfold Cert.GraphSpec.outAt
  rw [Cert.GraphSpec.act_eq_ge]
  unfold Cert.ReferenceIdeal.RefRun.out
  rw [pre_eq]
  generalize agg (Cert.GraphSpec.msg x w d) s t = N
  rw [select_apply, cmpf_apply, mulf_apply, addf_apply, mulf_apply, Ideal.cmpf_def, id_eq, splat_at, splat_at,
    bcast_col, bcast_row]

end Cert.ReferenceIdeal.RefValue

end
-- ==== Proof.lean ====
/-
  A graph-convolution layer, kernel against reference, over the extended reals.

  Both programs compute, from node features h, a per-node normalisation column, a weight matrix, a bias vector and two
  edge-index arrays (source, destination):
      message  m(r, c)   = (Σₖ h(r, k) · w(k, c)) · norm(r)
      aggregate n         = the rows of m gathered at the source indices, scatter-added into the destination rows
      result   out(r, c)  = act (n(r, c) · norm(r) + bias(c)),   act the leaky rectifier.
  The kernel program computes m in a grid region (row blocks of 5000; the matrix unit into a zero accumulator; the
  roundings to the narrow format are the identity on extended reals), aggregates on the host, and computes out in a
  second grid region; the reference does everything on the host.  The two message arrays are one function (a matrix
  product is the same sum however it is tiled); the aggregation is the same host function of the message array on both
  sides and is never opened; and the two spellings of the rectifier (v > 0 against v ≥ 0) agree on every extended real.
  No law used needs finiteness, so the precondition is never opened.
-/
import proofs.«134280_j30966714204803_2_alg».proof.Defs
import proofs.«134280_j30966714204803_2_alg».proof.Proof.Gen.Kernel
import proofs.«134280_j30966714204803_2_alg».proof.Proof.Gen.Kernel.Frame
import proofs.«134280_j30966714204803_2_alg».proof.Proof.Gen.KernelIdeal
import proofs.«134280_j30966714204803_2_alg».proof.Proof.Gen.KernelIdeal.Frame
import proofs.«134280_j30966714204803_2_alg».proof.Proof.Gen.ReferenceIdeal
import proofs.«134280_j30966714204803_2_alg».proof.Proof.Gen.Pre_finite_inputs
import proofs.«134280_j30966714204803_2_alg».proof.Proof.KValue
import proofs.«134280_j30966714204803_2_alg».proof.Proof.RefRun
import proofs.«134280_j30966714204803_2_alg».proof.Proof.RefValue

noncomputable section

namespace Cert.Proof

open Idealize.ShloMosaic Idealize.ShloMosaic.TcCoe Idealize.SL.Sem

/-- The two programs' aggregations are one function at the ideal values: the same gather and the same scatter-add
    (their dimension records hold the same numbers), and the kernel side's widening of the gathered rows is the
    identity on extended reals. -/
theorem agg_eq (M : (⟨2, ![100000, 128]⟩ : Shape).Idx → EReal) (s t : (⟨1, ![1600000]⟩ : Shape).Idx → BitVec 32) :
    Cert.KernelIdeal.Between.agg (F := Ideal) M s t = Cert.ReferenceIdeal.RefValue.agg M s t := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both runs end with the result array at the output array of the aggregation of the message array of the arguments. -/
theorem algebraic : Cert.algebraic_KernelIdeal_ReferenceIdeal := by
  intro m ρ m' ρ' _ hagree
  refine ⟨fun c => Cert.GraphSpec.out
      (Cert.ReferenceIdeal.RefValue.agg
        (Cert.GraphSpec.msg (m ((c.tc : Thread Cert.KernelIdeal.nD Cert.KernelIdeal.τ).loc Cert.KernelIdeal.main_arg0))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg1)))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩) (Cert.KernelIdeal.KValue.run m ρ)
    rw [agg_eq]
  · refine (θ_run Cert.ReferenceIdeal.defs _ _).mono (fun r h c => ⟨?_, (h c).2⟩) (Cert.ReferenceIdeal.RefRun.run (F := Ideal) m' ρ')
    rw [(h c).1, Cert.ReferenceIdeal.RefValue.out_eq_spec, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
